-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x2 : Shape := ⟨2, ![8192, 2]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_arg5 : FVec F S8x1408x2048 .f32) (main_v13 : IVec S_ 1) (main_v16 : IVec S8x2048x1408 1) : IVec S_ 1 :=
  let main_c_5 : IVec S_ 1 := constantI S_ 1 1#1
  let main_v17 : IVec S_ 1 := (fun x v => Host.reduce IntOp.andi x v reducesTo_S8x2048x1408_S_d0_1_2 h_S_) main_v16 main_c_5
  let main_v18 : IVec S_ 1 := andi main_v13 main_v17
  let main_v19 : FVec F S8x1408x2048 .f32 := Host.absf main_arg5
  let main_cst_6 : FVec F S_ .f32 := constant S_ .f32 0x7F800000#32
  let main_v20 : FVec F S8x1408x2048 .f32 := broadcastInDim S8x1408x2048 ![] bcast_S_S8x1408x2048 main_cst_6
  let main_v21 : IVec S8x1408x2048 1 := cmpf .olt main_v19 main_v20
  let main_c_7 : IVec S_ 1 := constantI S_ 1 1#1
  let main_v22 : IVec S_ 1 := (fun x v => Host.reduce IntOp.andi x v reducesTo_S8x1408x2048_S_d0_1_2 h_S_) main_v21 main_c_7
  let main_v23 : IVec S_ 1 := andi main_v18 main_v22
  main_v23

def fn {F : FTy → Type} [FloatOps F] (main_arg0 : FVec F S8192x2048 .f32) (main_arg1 : IVec S8192x2 32) (main_arg2 : FVec F S8192x2 .f32) (main_arg3 : FVec F S8x2048x1408 .f32) (main_arg4 : FVec F S8x2048x1408 .f32) (main_arg5 : FVec F S8x1408x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x2048x1408 .f32 := Host.absf main_arg3
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x2048x1408 .f32 := Host.absf main_arg4
  let main_cst_4 : FVec F S_ .f32 := constant S_ .f32 0x7F800000#32
  let main_v15 : FVec F S8x2048x1408 .f32 := broadcastInDim S8x2048x1408 ![] bcast_S_S8x2048x1408 main_cst_4
  let main_v16 : IVec S8x2048x1408 1 := cmpf .olt main_v14 main_v15
  fn_part1 (F := F) main_arg5 main_v13 main_v16
-- ==== Kernel.lean ====
abbrev S8192x2048 : Shape := ⟨2, ![8192, 2048]⟩
abbrev S8192x2 : Shape := ⟨2, ![8192, 2]⟩
abbrev S8x2048x1408 : Shape := ⟨3, ![8, 2048, 1408]⟩
abbrev S8x1408x2048 : Shape := ⟨3, ![8, 1408, 2048]⟩
abbrev S16384 : Shape := ⟨1, ![16384]⟩
abbrev S8192 : Shape := ⟨1, ![8192]⟩
abbrev S_ : Shape := ⟨0, ![]⟩
abbrev S16384x1 : Shape := ⟨2, ![16384, 1]⟩
abbrev S16384x2048 : Shape := ⟨2, ![16384, 2048]⟩
abbrev S8x2048x2048 : Shape := ⟨3, ![8, 2048, 2048]⟩
abbrev S8x2048x1 : Shape := ⟨3, ![8, 2048, 1]⟩
abbrev S1x128x2048 : Shape := ⟨3, ![1, 128, 2048]⟩
abbrev S1x2048x1408 : Shape := ⟨3, ![1, 2048, 1408]⟩
abbrev S1x1408x2048 : Shape := ⟨3, ![1, 1408, 2048]⟩
abbrev S1x128x1 : Shape := ⟨3, ![1, 128, 1]⟩
abbrev S128x2048 : Shape := ⟨2, ![128, 2048]⟩
abbrev S2048x1408 : Shape := ⟨2, ![2048, 1408]⟩
abbrev S128x1408 : Shape := ⟨2, ![128, 1408]⟩
abbrev S1408x2048 : Shape := ⟨2, ![1408, 2048]⟩
abbrev S128x1 : Shape := ⟨2, ![128, 1]⟩

abbrev nBuf : Space → Nat
  | .hbm => 57
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2, .i32⟩
  | .hbm, ⟨2, _⟩ => ⟨S8192x2, .f32⟩
  | .hbm, ⟨3, _⟩ => ⟨S8x2048x1408, .f32⟩
  | .hbm, ⟨4, _⟩ => ⟨S8x2048x1408, .f32⟩
  | .hbm, ⟨5, _⟩ => ⟨S8x1408x2048, .f32⟩
  | .hbm, ⟨6, _⟩ => ⟨S16384, .i32⟩
  | .hbm, ⟨7, _⟩ => ⟨S16384, .f32⟩
  | .hbm, ⟨8, _⟩ => ⟨S8192, .i32⟩
  | .hbm, ⟨9, _⟩ => ⟨S8192x2, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .i32⟩
  | .hbm, ⟨32, _⟩ => ⟨S8192x2048, .bf16⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x2048, .bf16⟩
  | .hbm, ⟨42, _⟩ => ⟨S8x2048x2048, .bf16⟩
  | .hbm, ⟨43, _⟩ => ⟨S8x2048x1408, .bf16⟩
  | .hbm, ⟨44, _⟩ => ⟨S8x2048x1408, .bf16⟩
  | .hbm, ⟨45, _⟩ => ⟨S8x1408x2048, .bf16⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S8x2048x1, .f32⟩
  | .hbm, ⟨50, _⟩ => ⟨S8x2048x2048, .bf16⟩
  | .hbm, ⟨51, _⟩ => ⟨S16384x2048, .bf16⟩
  | .hbm, ⟨52, _⟩ => ⟨S16384x2048, .f32⟩
  | .hbm, ⟨53, _⟩ => ⟨S_, .f32⟩
  | .hbm, ⟨54, _⟩ => ⟨S8192x2048, .f32⟩
  | .hbm, ⟨55, _⟩ => ⟨S16384x1, .i32⟩
  | .hbm, ⟨56, _⟩ => ⟨S8192x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S1x128x1, .f32⟩
  | .local _ .vmem, ⟨9, _⟩ => ⟨S1x128x1, .f32⟩
  | .local _ .vmem, ⟨10, _⟩ => ⟨S1x128x2048, .bf16⟩
  | .local _ .vmem, ⟨11, _⟩ => ⟨S1x128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192x2_S16384 : S8192x2.ShapeCasts S16384
  bcast_S8192_S8192x2_0 : S8192.BroadcastsInDim S8192x2 (![0] : Fin 1 → Fin S8192x2.rank)
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  shapeCasts_S16384x2048_S8x2048x2048 : S16384x2048.ShapeCasts S8x2048x2048
  shapeCasts_S16384_S8x2048x1 : S16384.ShapeCasts S8x2048x1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x2048 : S128x1.Broadcasts S128x2048
  shapeCasts_S128x2048_S1x128x2048 : S128x2048.ShapeCasts S1x128x2048
  packedbf16_S1x128x2048_S1x128x2048_0_0_0 : (Rect.unit (s := S1x128x2048) ![0, 0, 0] S1x128x2048.size inb_S1x128x2048_S1x128x2048_0_0_0).PackedRows (EltTy.packing .bf16)
  shapeCasts_S8x2048x2048_S16384x2048 : S8x2048x2048.ShapeCasts S16384x2048
  bcast_S_S8192x2048 : S_.BroadcastsInDim S8192x2048 (![] : Fin 0 → Fin S8192x2048.rank)
  gather_S16384_S16384x1_S16384_n_0_n_n_0_1_1_wf : GatherDims.WF S16384 S16384x1 S16384 [] [0] [] [0] [] 1 ![1]
  gather_S8192x2048_S16384x1_S16384x2048_1_0_n_n_0_1_12048_wf : GatherDims.WF S8192x2048 S16384x1 S16384x2048 [1] [0] [] [0] [] 1 ![1, 2048]
  dot_S128x2048_S2048x1408_S128x1408_1_0_0_1_n_n_wf : DotDims.WF S128x2048 S2048x1408 S128x1408 [1] [0] [0] [1] [] []
  dot_S128x1408_S1408x2048_S128x2048_1_0_0_1_n_n_wf : DotDims.WF S128x1408 S1408x2048 S128x2048 [1] [0] [0] [1] [] []
  scatter_S8192x2048_S16384x1_S16384x2048_1_0_0_1_wf : ScatterDims.WF S8192x2048 S16384x1 S16384x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x2048x2048.size a
  hwx0_0 : ∀ i : grid0.Coords, EltTy.bits .bf16 = 32 ∨ (Rect.block (s := S8x2048x2048) S1x128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1408.size a ≤ S8x2048x1408.size a
  hwx0_1 : ∀ i : grid0.Coords, EltTy.bits .bf16 = 32 ∨ (Rect.block (s := S8x2048x1408) S1x2048x1408.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1408x2048.size a ≤ S8x1408x2048.size a
  hwx0_3 : ∀ i : grid0.Coords, EltTy.bits .bf16 = 32 ∨ (Rect.block (s := S8x1408x2048) S1x1408x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S8x2048x1.size a
  hwx0_4 : ∀ i : grid0.Coords, EltTy.bits .f32 = 32 ∨ (Rect.block (s := S8x2048x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x2048.size a ≤ S8x2048x2048.size a
  hwx0_5 : ∀ i : grid0.Coords, EltTy.bits .bf16 = 32 ∨ (Rect.block (s := S8x2048x2048) S1x128x2048.size (cc0_transform_5 i) (hinb0_5 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf
def dot_S128x2048_S2048x1408_S128x1408_1_0_0_1_n_n : DotDims S128x2048 S2048x1408 S128x1408 where
  lhsContracting := [1]
  rhsContracting := [0]
  lhsNonContracting := [0]
  rhsNonContracting := [1]
  lhsBatch := []
  rhsBatch := []
  wf := dot_S128x2048_S2048x1408_S128x1408_1_0_0_1_n_n_wf
def dot_S128x1408_S1408x2048_S128x2048_1_0_0_1_n_n : DotDims S128x1408 S1408x2048 S128x2048 where
  lhsContracting := [1]
  rhsContracting := [0]
  lhsNonContracting := [0]
  rhsNonContracting := [1]
  lhsBatch := []
  rhsBatch := []
  wf := dot_S128x1408_S1408x2048_S128x2048_1_0_0_1_n_n_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

abbrev win0_0 : Pipeline.Window sig grid0 :=
  Pipeline.Window.ofSpec (Memref.whole main_v28) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x2048x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x1408x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x2 : Shape := ⟨2, ![8192, 2]⟩
abbrev S8x2048x1408 : Shape := ⟨3, ![8, 2048, 1408]⟩
abbrev S8x1408x2048 : Shape := ⟨3, ![8, 1408, 2048]⟩
abbrev S16384 : Shape := ⟨1, ![16384]⟩
abbrev S8192 : Shape := ⟨1, ![8192]⟩
abbrev S_ : Shape := ⟨0, ![]⟩
abbrev S16384x1 : Shape := ⟨2, ![16384, 1]⟩
abbrev S16384x2048 : Shape := ⟨2, ![16384, 2048]⟩
abbrev S8x2048x2048 : Shape := ⟨3, ![8, 2048, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2, .i32⟩
  | .hbm, ⟨2, _⟩ => ⟨S8192x2, .f32⟩
  | .hbm, ⟨3, _⟩ => ⟨S8x2048x1408, .f32⟩
  | .hbm, ⟨4, _⟩ => ⟨S8x2048x1408, .f32⟩
  | .hbm, ⟨5, _⟩ => ⟨S8x1408x2048, .f32⟩
  | .hbm, ⟨6, _⟩ => ⟨S16384, .i32⟩
  | .hbm, ⟨7, _⟩ => ⟨S16384, .f32⟩
  | .hbm, ⟨8, _⟩ => ⟨S8192, .i32⟩
  | .hbm, ⟨9, _⟩ => ⟨S8192x2, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S16384x2048, .f32⟩
  | .hbm, ⟨41, _⟩ => ⟨S8x2048x2048, .f32⟩
  | .hbm, ⟨42, _⟩ => ⟨S8x2048x1408, .f32⟩
  | .hbm, ⟨43, _⟩ => ⟨S8x2048x1408, .f32⟩
  | .hbm, ⟨44, _⟩ => ⟨S8x2048x1408, .f32⟩
  | .hbm, ⟨45, _⟩ => ⟨S_, .f32⟩
  | .hbm, ⟨46, _⟩ => ⟨S8x2048x1408, .f32⟩
  | .hbm, ⟨47, _⟩ => ⟨S8x2048x1408, .f32⟩
  | .hbm, ⟨48, _⟩ => ⟨S_, .f32⟩
  | .hbm, ⟨49, _⟩ => ⟨S8x2048x1408, .f32⟩
  | .hbm, ⟨50, _⟩ => ⟨S8x2048x1408, .f32⟩
  | .hbm, ⟨51, _⟩ => ⟨S8x2048x1408, .f32⟩
  | .hbm, ⟨52, _⟩ => ⟨S8x2048x1408, .f32⟩
  | .hbm, ⟨53, _⟩ => ⟨S8x2048x1408, .f32⟩
  | .hbm, ⟨54, _⟩ => ⟨S8x2048x2048, .f32⟩
  | .hbm, ⟨55, _⟩ => ⟨S16384x2048, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S8192x2048, .f32⟩
  | .hbm, ⟨64, _⟩ => ⟨S16384x1, .i32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]

class Facts₀ : Prop where
  shapeCasts_S8192x2_S16384 : S8192x2.ShapeCasts S16384
  bcast_S8192_S8192x2_0 : S8192.BroadcastsInDim S8192x2 (![0] : Fin 1 → Fin S8192x2.rank)
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S8x2048x2048 : S16384x2048.ShapeCasts S8x2048x2048
  bcast_S_S8x2048x1408 : S_.BroadcastsInDim S8x2048x1408 (![] : Fin 0 → Fin S8x2048x1408.rank)
  shapeCasts_S8x2048x2048_S16384x2048 : S8x2048x2048.ShapeCasts S16384x2048
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S_S8192x2048 : S_.BroadcastsInDim S8192x2048 (![] : Fin 0 → Fin S8192x2048.rank)
  gather_S16384_S16384x1_S16384_n_0_n_n_0_1_1_wf : GatherDims.WF S16384 S16384x1 S16384 [] [0] [] [0] [] 1 ![1]
  gather_S8192x2048_S16384x1_S16384x2048_1_0_n_n_0_1_12048_wf : GatherDims.WF S8192x2048 S16384x1 S16384x2048 [1] [0] [] [0] [] 1 ![1, 2048]
  dot_S8x2048x2048_S8x2048x1408_S8x2048x1408_2_1_1_2_0_0_wf : DotDims.WF S8x2048x2048 S8x2048x1408 S8x2048x1408 [2] [1] [1] [2] [0] [0]
  dot_S8x2048x1408_S8x1408x2048_S8x2048x2048_2_1_1_2_0_0_wf : DotDims.WF S8x2048x1408 S8x1408x2048 S8x2048x2048 [2] [1] [1] [2] [0] [0]
  scatter_S8192x2048_S16384x1_S16384x2048_1_0_0_1_wf : ScatterDims.WF S8192x2048 S16384x1 S16384x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf
def dot_S8x2048x2048_S8x2048x1408_S8x2048x1408_2_1_1_2_0_0 : DotDims S8x2048x2048 S8x2048x1408 S8x2048x1408 where
  lhsContracting := [2]
  rhsContracting := [1]
  lhsNonContracting := [1]
  rhsNonContracting := [2]
  lhsBatch := [0]
  rhsBatch := [0]
  wf := dot_S8x2048x2048_S8x2048x1408_S8x2048x1408_2_1_1_2_0_0_wf
def dot_S8x2048x1408_S8x1408x2048_S8x2048x2048_2_1_1_2_0_0 : DotDims S8x2048x1408 S8x1408x2048 S8x2048x2048 where
  lhsContracting := [2]
  rhsContracting := [1]
  lhsNonContracting := [1]
  rhsNonContracting := [2]
  lhsBatch := [0]
  rhsBatch := [0]
  wf := dot_S8x2048x1408_S8x1408x2048_S8x2048x2048_2_1_1_2_0_0_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

class Facts : Prop extends Facts₀ where

variable [Facts]
-- ==== Proof.HostSide.lean ====
/-
  The host operations around the region, on the kernel's side, named by the reference's own stages.

  Before the region both programs run the same routing arithmetic on the same arguments: flatten the expert ids, sort the
  slots by expert id (a stable sort carrying the slot numbers), gather each slot's token number, routing weight and token
  row in that order, regroup as `[8, 2048, …]`.  The kernel's program differs only in rounding the rows and the three weight
  tensors to a narrower float format first — the identity on the extended reals — and in multiplying the weights by one
  before, rather than after, regrouping them.  So each array the region finds is the reference's stage of the same
  arguments, term for term; nothing of the sort or of the gathers is opened.  After the region the kernel's program
  flattens the region's output, widens the format (the identity again) and scatter-adds the rows to their tokens.
-/
import proofs.«120782_j15307263443373_2_alg».proof.Proof.Gen.KernelIdeal.Frame
import proofs.«120782_j15307263443373_2_alg».proof.Proof.Gen.ReferenceIdeal.Read
import Idealize.ShloMosaic.Lib.Pipeline.Value
import Idealize.ShloMosaic.Lib.StableHlo.Run
import Idealize.ShloMosaic.Lib.ValueIdx

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The token number of each slot, in expert-sorted order. -/
theorem tokens_eq (c : Dev nD) :
    (V m c main_v19 : S16384.Idx → BitVec 32) = Cert.ReferenceIdeal.Read.val_main_v19 (F := Ideal) (m ((c : Thread nD τ).loc main_arg1)) := by
  dsimp only [V, V0]
  simp only [hostOps0, hostOps0_1, hostOps0_2, List.flatten_cons, List.flatten_nil, List.append_nil, List.cons_append, List.nil_append]
  after_results_simp
  rfl

/-- The routing weight of each slot, in expert-sorted order. -/
theorem weights_eq (c : Dev nD) :
    (V m c main_v12 : S16384.Idx → EReal)
      = Cert.ReferenceIdeal.Read.val_main_v12 (F := Ideal) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  rfl

/-- The grouped rows: rounding the token rows to the narrower format first changes nothing on the extended reals. -/
theorem rows_eq (c : Dev nD) :
    (V m c main_v28 : S8x2048x2048.Idx → EReal)
      = Cert.ReferenceIdeal.Read.val_main_v27 (F := Ideal) (m ((c : Thread nD τ).loc main_arg0)) (m ((c : Thread nD τ).loc main_arg1)) := by
  dsimp only [V, V0]
  simp only [hostOps0, hostOps0_1, hostOps0_2, List.flatten_cons, List.flatten_nil, List.append_nil, List.cons_append, List.nil_append]
  after_results_simp
  rfl

/-- The gate matrices are the argument. -/
theorem gate_eq (c : Dev nD) : (V m c main_v29 : S8x2048x1408.Idx → EReal) = m ((c : Thread nD τ).loc main_arg3) := by
  dsimp only [V, V0]
  simp only [hostOps0, hostOps0_1, hostOps0_2, List.flatten_cons, List.flatten_nil, List.append_nil, List.cons_append, List.nil_append]
  after_results_simp
  rfl

/-- The up matrices are the argument. -/
theorem up_eq (c : Dev nD) : (V m c main_v30 : S8x2048x1408.Idx → EReal) = m ((c : Thread nD τ).loc main_arg4) := by
  dsimp only [V, V0]
  simp only [hostOps0, hostOps0_1, hostOps0_2, List.flatten_cons, List.flatten_nil, List.append_nil, List.cons_append, List.nil_append]
  after_results_simp
  rfl

/-- The down matrices are the argument. -/
theorem dn_eq (c : Dev nD) : (V m c main_v31 : S8x1408x2048.Idx → EReal) = m ((c : Thread nD τ).loc main_arg5) := by
  dsimp only [V, V0]
  simp only [hostOps0, hostOps0_1, hostOps0_2, List.flatten_cons, List.flatten_nil, List.append_nil, List.cons_append, List.nil_append]
  after_results_simp
  rfl

/-- The weights' column `[8, 2048, 1]`: the sorted weights times one, regrouped. -/
theorem wts_eq (c : Dev nD) :
    (V m c main_v34 : S8x2048x1.Idx → EReal)
      = shapeCast S8x2048x1 (mulf (V m c main_v12 : S16384.Idx → EReal)
          (broadcastInDim S16384 ![] bcast_S_S16384 (constant (F := Ideal) S_ .f32 0x3F800000#32))) shapeCasts_S16384_S8x2048x1 := by
  dsimp only [V, V0]
  simp only [hostOps0, hostOps0_1, hostOps0_2, List.flatten_cons, List.flatten_nil, List.append_nil, List.cons_append, List.nil_append]
  after_results_simp
  rfl

/-- Entry `(e, r, 0)` of that column is the weight of flat row `2048·e + r`, times the literal one. -/
theorem wts_apply (c : Dev nD) (e : Fin 8) (r : Fin 2048) (s : Fin 16384) (hs : s.val = e.val * 2048 + r.val) :
    (V m c main_v34 : S8x2048x1.Idx → EReal) (ix3 e r (0 : Fin 1))
      = Cert.ReferenceIdeal.Read.val_main_v12 (F := Ideal) (m ((c : Thread nD τ).loc main_arg1)) (m ((c : Thread nD τ).loc main_arg2)) (ix1 s)
        * Ideal.ofBits .f32 0x3F800000#32 := by
  rw [wts_eq, weights_eq]
  refine (shapeCast_apply _ shapeCasts_S16384_S8x2048x1 (ix3 e r (0 : Fin 1)) (ix1 s) (by
    rw [Shape.rowMajor_val_one, Shape.rowMajor_val_three]
    show s.val = (e.val * 2048 + r.val) * 1 + 0
    omega)).trans ?_
  rfl

end Cert.KernelIdeal.HostSide

end
-- ==== Proof.GluSpec.lean ====
/-
  The mathematics of one routed feed-forward layer, free of any program.

  A batch of token rows is grouped by expert: `xs e r` is the `r`-th row handed to expert `e`, a vector of
  `D` features.  Expert `e` owns three matrices: `wg e` and `wu e` (both `D × H`) and `wd e` (`H × D`).
  For a row `x` the expert computes

      g = x · wg e        u = x · wu e        hidden = (g · σ(g)) · u        y = hidden · wd e

  with `σ t = 1 / (1 + e^(-t))` the logistic function, all products and sums taken on the extended reals, and
  the row `y` is finally multiplied by the row's routing weight `sc e r`.  Everything below is stated entry by
  entry, over explicit coordinates, so that two programs computing these sums in different tilings meet at the
  same term.  No law of arithmetic beyond reading a sum at its index is needed: the value at `(e, r, d)`
  depends only on row `r` of expert `e`, on expert `e`'s matrices and on that row's weight (`scaled_congr`).
-/
import Idealize.ShloMosaic.PureOps.Ideal
import Idealize.ShloMosaic.PureOps.Ideal.Laws
import Idealize.ShloMosaic.Lib.ValueIdx

noncomputable section

namespace Cert.Glu

open Idealize.ShloMosaic Idealize.ShloMosaic.ValueIdx

variable {E R D H : Nat}

/-- Entry `h` of the projection `x · w e` of row `r` of expert `e`: the sum over the `D` features. -/
def proj (xs : (⟨3, ![E, R, D]⟩ : Shape).Idx → EReal) (w : (⟨3, ![E, D, H]⟩ : Shape).Idx → EReal)
    (e : Fin E) (r : Fin R) (h : Fin H) : EReal :=
  ∑ k : Fin D, xs (ix3 e r k) * w (ix3 e k h)

/-- Entry `h` of the gated hidden row: `(g · σ(g)) · u`, `g` the gate projection and `u` the up projection. -/
def hidden (xs : (⟨3, ![E, R, D]⟩ : Shape).Idx → EReal) (wg wu : (⟨3, ![E, D, H]⟩ : Shape).Idx → EReal)
    (e : Fin E) (r : Fin R) (h : Fin H) : EReal :=
  (proj xs wg e r h * Ideal.logistic (proj xs wg e r h)) * proj xs wu e r h

/-- Entry `d` of the expert's output row: the hidden row times `wd e`, a sum over the `H` hidden units. -/
def down (xs : (⟨3, ![E, R, D]⟩ : Shape).Idx → EReal) (wg wu : (⟨3, ![E, D, H]⟩ : Shape).Idx → EReal)
    (wd : (⟨3, ![E, H, D]⟩ : Shape).Idx → EReal) (e : Fin E) (r : Fin R) (d : Fin D) : EReal :=
  ∑ h : Fin H, hidden xs wg wu e r h * wd (ix3 e h d)

/-- The output row multiplied by the row's routing weight (kept as a column `[E, R, 1]`). -/
def scaled (xs : (⟨3, ![E, R, D]⟩ : Shape).Idx → EReal) (wg wu : (⟨3, ![E, D, H]⟩ : Shape).Idx → EReal)
    (wd : (⟨3, ![E, H, D]⟩ : Shape).Idx → EReal) (sc : (⟨3, ![E, R, 1]⟩ : Shape).Idx → EReal)
    (e : Fin E) (r : Fin R) (d : Fin D) : EReal :=
  down xs wg wu wd e r d * sc (ix3 e r (0 : Fin 1))

/-- LOCALITY.  The value at `(e, r, d)` reads only row `r` of expert `e`, that expert's three matrices and the row's
    weight; so a tile holding exactly these (one expert's matrices, a run of its rows) computes the same entries
    as the whole arrays do, whatever the sizes of the two arrangements. -/
theorem scaled_congr {E' R' : Nat}
    (xs : (⟨3, ![E, R, D]⟩ : Shape).Idx → EReal) (wg wu : (⟨3, ![E, D, H]⟩ : Shape).Idx → EReal)
    (wd : (⟨3, ![E, H, D]⟩ : Shape).Idx → EReal) (sc : (⟨3, ![E, R, 1]⟩ : Shape).Idx → EReal)
    (xs' : (⟨3, ![E', R', D]⟩ : Shape).Idx → EReal) (wg' wu' : (⟨3, ![E', D, H]⟩ : Shape).Idx → EReal)
    (wd' : (⟨3, ![E', H, D]⟩ : Shape).Idx → EReal) (sc' : (⟨3, ![E', R', 1]⟩ : Shape).Idx → EReal)
    (e : Fin E) (r : Fin R) (e' : Fin E') (r' : Fin R')
    (hx : ∀ k : Fin D, xs (ix3 e r k) = xs' (ix3 e' r' k))
    (hg : ∀ (k : Fin D) (h : Fin H), wg (ix3 e k h) = wg' (ix3 e' k h))
    (hu : ∀ (k : Fin D) (h : Fin H), wu (ix3 e k h) = wu' (ix3 e' k h))
    (hd : ∀ (h : Fin H) (d : Fin D), wd (ix3 e h d) = wd' (ix3 e' h d))
    (hs : sc (ix3 e r (0 : Fin 1)) = sc' (ix3 e' r' (0 : Fin 1))) (d : Fin D) :
    scaled xs wg wu wd sc e r d = scaled xs' wg' wu' wd' sc' e' r' d := by
  have hp : ∀ (w : (⟨3, ![E, D, H]⟩ : Shape).Idx → EReal) (w' : (⟨3, ![E', D, H]⟩ : Shape).Idx → EReal),
      (∀ (k : Fin D) (h : Fin H), w (ix3 e k h) = w' (ix3 e' k h)) → ∀ h, proj xs w e r h = proj xs' w' e' r' h := by
    intro w w' hw h
    unfold proj
    exact Finset.sum_congr rfl fun k _ => by rw [hx k, hw k h]
  unfold scaled down hidden
  rw [hs]
  refine congrArg (· * sc' (ix3 e' r' (0 : Fin 1))) (Finset.sum_congr rfl fun h _ => ?_)
  rw [hp wg wg' hg h, hp wu wu' hu h, hd h d]

/-- The word `0x3F800000` is the number one. -/
theorem one_f32 : Ideal.ofBits .f32 0x3F800000#32 = 1 := by
  simp [Ideal.ofBits, Ideal.ieee, -EReal.coe_mul]; norm_num

end Cert.Glu

end
-- ==== Proof.TileValue.lean ====
/-
  One tile of the grouped feed-forward computation, read entry by entry.

  The kernel's body works on one tile: 128 consecutive rows of one expert (a block `[1, 128, 2048]`), that
  expert's three weight matrices (blocks `[1, 2048, 1408]`, `[1, 2048, 1408]`, `[1, 1408, 2048]`) and the rows'
  routing weights (a column `[1, 128, 1]`).  It drops the leading unit axis, forms the gate and up projections by
  two matrix products into zero accumulators, multiplies `g · σ(g)` by `u`, multiplies the result by the down
  matrix, scales each row by its weight (the column broadcast along the row) and puts the unit axis back.
  At the ideal instance a change of float format is the identity and a matrix product into a zero accumulator
  is the plain sum over the contracted axis, so entry `(0, r, d)` of what the body stores is
  `Glu.scaled` of the five blocks at `(0, r, d)`: the specification itself, at the tile's sizes.
-/
import proofs.«120782_j15307263443373_2_alg».proof.Proof.Gen.KernelIdeal.Skeleton
import proofs.«120782_j15307263443373_2_alg».proof.Proof.GluSpec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## Dropping and restoring a leading unit axis, read at an index -/

/-- `[1, a, b] → [a, b]` at `(p, q)` is the operand at `(0, p, q)`. -/
theorem squeeze_apply {a b : Nat} {α : Type} (v : (⟨3, ![1, a, b]⟩ : Shape).Idx → α)
    (h : (⟨3, ![1, a, b]⟩ : Shape).ShapeCasts ⟨2, ![a, b]⟩) (p : Fin a) (q : Fin b) :
    shapeCast (⟨2, ![a, b]⟩ : Shape) v h (ix2 p q) = v (ix3 (0 : Fin 1) p q) :=
  shapeCast_apply v h (ix2 p q) (ix3 (0 : Fin 1) p q) (by
    rw [Shape.rowMajor_val_three, Shape.rowMajor_val_two]
    show (0 * a + p.val) * b + q.val = p.val * b + q.val
    rw [Nat.zero_mul, Nat.zero_add])

/-- `[a, b] → [1, a, b]` at `(z, p, q)` is the operand at `(p, q)`. -/
theorem unsqueeze_apply {a b : Nat} {α : Type} (v : (⟨2, ![a, b]⟩ : Shape).Idx → α)
    (h : (⟨2, ![a, b]⟩ : Shape).ShapeCasts ⟨3, ![1, a, b]⟩) (z : Fin 1) (p : Fin a) (q : Fin b) :
    shapeCast (⟨3, ![1, a, b]⟩ : Shape) v h (ix3 z p q) = v (ix2 p q) :=
  shapeCast_apply v h (ix3 z p q) (ix2 p q) (by
    rw [Shape.rowMajor_val_three, Shape.rowMajor_val_two]
    show p.val * b + q.val = (z.val * a + p.val) * b + q.val
    have hz : z.val = 0 := by have := z.isLt; omega
    rw [hz, Nat.zero_mul, Nat.zero_add])

/-- A column `[a, 1]` broadcast along the rows to `[a, b]`, at `(p, q)`, is the column's entry `p`. -/
theorem column_apply {a b : Nat} {α : Type} (v : (⟨2, ![a, 1]⟩ : Shape).Idx → α)
    (h : (⟨2, ![a, 1]⟩ : Shape).Broadcasts ⟨2, ![a, b]⟩) (ha : a ≠ 1) (p : Fin a) (q : Fin b) :
    broadcastTo (⟨2, ![a, b]⟩ : Shape) v h (ix2 p q) = v (ix2 p (0 : Fin 1)) :=
  broadcastTo_apply v h (ix2 p q) (ix2 p (0 : Fin 1)) (fun x => match x with
    | ⟨0, _⟩ => by show p.val = if a = 1 then 0 else p.val; rw [if_neg ha]
    | ⟨1, _⟩ => by show 0 = if (1 : Nat) = 1 then 0 else q.val; rw [if_pos rfl])

/-! ## The two matrix products, as sums over the contracted axis -/

theorem up_lhs0 (i : S128x1408.Idx) (q : dot_S128x2048_S2048x1408_S128x1408_1_0_0_1_n_n.contr.Idx) : (dot_S128x2048_S2048x1408_S128x1408_1_0_0_1_n_n.lhsIdx i q 0).val = (i 0).val := by
  unfold DotDims.lhsIdx
  rw [dif_neg (show ¬(0 : Fin S128x2048.rank) ∈ dot_S128x2048_S2048x1408_S128x1408_1_0_0_1_n_n.lhsBatch by decide),
    dif_pos (show (0 : Fin S128x2048.rank) ∈ dot_S128x2048_S2048x1408_S128x1408_1_0_0_1_n_n.lhsNonContracting by decide)]
  rfl
theorem up_lhs1 (i : S128x1408.Idx) (q : dot_S128x2048_S2048x1408_S128x1408_1_0_0_1_n_n.contr.Idx) : (dot_S128x2048_S2048x1408_S128x1408_1_0_0_1_n_n.lhsIdx i q 1).val = (q ⟨0, by decide⟩).val :=
  dot_S128x2048_S2048x1408_S128x1408_1_0_0_1_n_n.lhsIdx_val_of_single rfl i q
theorem up_rhs0 (i : S128x1408.Idx) (q : dot_S128x2048_S2048x1408_S128x1408_1_0_0_1_n_n.contr.Idx) : (dot_S128x2048_S2048x1408_S128x1408_1_0_0_1_n_n.rhsIdx i q 0).val = (q ⟨0, by decide⟩).val :=
  dot_S128x2048_S2048x1408_S128x1408_1_0_0_1_n_n.rhsIdx_val_of_single rfl i q
theorem up_rhs1 (i : S128x1408.Idx) (q : dot_S128x2048_S2048x1408_S128x1408_1_0_0_1_n_n.contr.Idx) : (dot_S128x2048_S2048x1408_S128x1408_1_0_0_1_n_n.rhsIdx i q 1).val = (i 1).val := by
  unfold DotDims.rhsIdx
  rw [dif_neg (show ¬(1 : Fin S2048x1408.rank) ∈ dot_S128x2048_S2048x1408_S128x1408_1_0_0_1_n_n.rhsBatch by decide),
    dif_pos (show (1 : Fin S2048x1408.rank) ∈ dot_S128x2048_S2048x1408_S128x1408_1_0_0_1_n_n.rhsNonContracting by decide)]
  rfl

/-- Rows `[128, 2048]` times a matrix `[2048, 1408]` into the zero accumulator: entry `(r, h)` is the sum over the
    2048 features. -/
theorem up_apply (l : FVec Ideal S128x2048 .bf16) (w : FVec Ideal S2048x1408 .bf16) (r : Fin 128) (h : Fin 1408) :
    matmul dot_S128x2048_S2048x1408_S128x1408_1_0_0_1_n_n none l w (constant (F := Ideal) S128x1408 .f32 0x00000000#32) (ix2 r h)
      = ∑ k : Fin 2048, l (ix2 r k) * w (ix2 k h) := by
  refine (Ideal.matmul_constant_zero_apply dot_S128x2048_S2048x1408_S128x1408_1_0_0_1_n_n none l w (ix2 r h)).trans ?_
  rw [← Equiv.sum_comp (contrEquiv1 dot_S128x2048_S2048x1408_S128x1408_1_0_0_1_n_n 2048 rfl rfl).symm]
  refine Finset.sum_congr rfl fun k _ => ?_
  have hk := contrEquiv1_symm_val dot_S128x2048_S2048x1408_S128x1408_1_0_0_1_n_n 2048 rfl rfl k
  have el : dot_S128x2048_S2048x1408_S128x1408_1_0_0_1_n_n.lhsIdx (ix2 r h) ((contrEquiv1 dot_S128x2048_S2048x1408_S128x1408_1_0_0_1_n_n 2048 rfl rfl).symm k) = ix2 r k :=
    funext fun a => Fin.ext (by
      match a with
      | ⟨0, _⟩ => exact up_lhs0 _ _
      | ⟨1, _⟩ => exact (up_lhs1 _ _).trans hk)
  have er : dot_S128x2048_S2048x1408_S128x1408_1_0_0_1_n_n.rhsIdx (ix2 r h) ((contrEquiv1 dot_S128x2048_S2048x1408_S128x1408_1_0_0_1_n_n 2048 rfl rfl).symm k) = ix2 k h :=
    funext fun a => Fin.ext (by
      match a with
      | ⟨0, _⟩ => exact (up_rhs0 _ _).trans hk
      | ⟨1, _⟩ => exact up_rhs1 _ _)
  rw [el, er]

theorem dn_lhs0 (i : S128x2048.Idx) (q : dot_S128x1408_S1408x2048_S128x2048_1_0_0_1_n_n.contr.Idx) : (dot_S128x1408_S1408x2048_S128x2048_1_0_0_1_n_n.lhsIdx i q 0).val = (i 0).val := by
  unfold DotDims.lhsIdx
  rw [dif_neg (show ¬(0 : Fin S128x1408.rank) ∈ dot_S128x1408_S1408x2048_S128x2048_1_0_0_1_n_n.lhsBatch by decide),
    dif_pos (show (0 : Fin S128x1408.rank) ∈ dot_S128x1408_S1408x2048_S128x2048_1_0_0_1_n_n.lhsNonContracting by decide)]
  rfl
theorem dn_lhs1 (i : S128x2048.Idx) (q : dot_S128x1408_S1408x2048_S128x2048_1_0_0_1_n_n.contr.Idx) : (dot_S128x1408_S1408x2048_S128x2048_1_0_0_1_n_n.lhsIdx i q 1).val = (q ⟨0, by decide⟩).val :=
  dot_S128x1408_S1408x2048_S128x2048_1_0_0_1_n_n.lhsIdx_val_of_single rfl i q
theorem dn_rhs0 (i : S128x2048.Idx) (q : dot_S128x1408_S1408x2048_S128x2048_1_0_0_1_n_n.contr.Idx) : (dot_S128x1408_S1408x2048_S128x2048_1_0_0_1_n_n.rhsIdx i q 0).val = (q ⟨0, by decide⟩).val :=
  dot_S128x1408_S1408x2048_S128x2048_1_0_0_1_n_n.rhsIdx_val_of_single rfl i q
theorem dn_rhs1 (i : S128x2048.Idx) (q : dot_S128x1408_S1408x2048_S128x2048_1_0_0_1_n_n.contr.Idx) : (dot_S128x1408_S1408x2048_S128x2048_1_0_0_1_n_n.rhsIdx i q 1).val = (i 1).val := by
  unfold DotDims.rhsIdx
  rw [dif_neg (show ¬(1 : Fin S1408x2048.rank) ∈ dot_S128x1408_S1408x2048_S128x2048_1_0_0_1_n_n.rhsBatch by decide),
    dif_pos (show (1 : Fin S1408x2048.rank) ∈ dot_S128x1408_S1408x2048_S128x2048_1_0_0_1_n_n.rhsNonContracting by decide)]
  rfl

/-- Hidden rows `[128, 1408]` times the down matrix `[1408, 2048]` into the zero accumulator: entry `(r, d)` is the
    sum over the 1408 hidden units. -/
theorem down_apply (l : FVec Ideal S128x1408 .bf16) (w : FVec Ideal S1408x2048 .bf16) (r : Fin 128) (d : Fin 2048) :
    matmul dot_S128x1408_S1408x2048_S128x2048_1_0_0_1_n_n none l w (constant (F := Ideal) S128x2048 .f32 0x00000000#32) (ix2 r d)
      = ∑ k : Fin 1408, l (ix2 r k) * w (ix2 k d) := by
  refine (Ideal.matmul_constant_zero_apply dot_S128x1408_S1408x2048_S128x2048_1_0_0_1_n_n none l w (ix2 r d)).trans ?_
  rw [← Equiv.sum_comp (contrEquiv1 dot_S128x1408_S1408x2048_S128x2048_1_0_0_1_n_n 1408 rfl rfl).symm]
  refine Finset.sum_congr rfl fun k _ => ?_
  have hk := contrEquiv1_symm_val dot_S128x1408_S1408x2048_S128x2048_1_0_0_1_n_n 1408 rfl rfl k
  have el : dot_S128x1408_S1408x2048_S128x2048_1_0_0_1_n_n.lhsIdx (ix2 r d) ((contrEquiv1 dot_S128x1408_S1408x2048_S128x2048_1_0_0_1_n_n 1408 rfl rfl).symm k) = ix2 r k :=
    funext fun a => Fin.ext (by
      match a with
      | ⟨0, _⟩ => exact dn_lhs0 _ _
      | ⟨1, _⟩ => exact (dn_lhs1 _ _).trans hk)
  have er : dot_S128x1408_S1408x2048_S128x2048_1_0_0_1_n_n.rhsIdx (ix2 r d) ((contrEquiv1 dot_S128x1408_S1408x2048_S128x2048_1_0_0_1_n_n 1408 rfl rfl).symm k) = ix2 k d :=
    funext fun a => Fin.ext (by
      match a with
      | ⟨0, _⟩ => exact (dn_rhs0 _ _).trans hk
      | ⟨1, _⟩ => exact dn_rhs1 _ _)
  rw [el, er]

/-! ## The stored tile -/

/-- Entry `(z, r, d)` of the tile the body stores is the specification's value at `(0, r, d)` of the five loaded
    blocks (the tile is one expert wide, so the expert coordinate is `0`). -/
theorem stored_apply (x0 : FVec Ideal S1x128x2048 .bf16) (x1 x2 : FVec Ideal S1x2048x1408 .bf16)
    (x3 : FVec Ideal S1x1408x2048 .bf16) (x4 : FVec Ideal S1x128x1 .f32) (z : Fin 1) (r : Fin 128) (d : Fin 2048) :
    k0_pay1 (F := Ideal) x0 x1 x2 x3 x4 (ix3 z r d) = Glu.scaled x0 x1 x2 x3 x4 (0 : Fin 1) r d := by
  unfold k0_pay1
  refine (unsqueeze_apply _ _ z r d).trans ?_
  show (matmul dot_S128x1408_S1408x2048_S128x2048_1_0_0_1_n_n none _ _ (constant (F := Ideal) S128x2048 .f32 0x00000000#32) (ix2 r d))
      * (broadcastTo S128x2048 (shapeCast S128x1 x4 shapeCasts_S1x128x1_S128x1) broadcasts_S128x1_S128x2048 (ix2 r d)) = _
  rw [down_apply, column_apply _ _ (by decide) r d, squeeze_apply x4 _ r (0 : Fin 1)]
  unfold Glu.scaled Glu.down
  refine congrArg (· * x4 (ix3 (0 : Fin 1) r (0 : Fin 1))) (Finset.sum_congr rfl fun h _ => ?_)
  rw [squeeze_apply x3 _ h d]
  refine congrArg (· * x3 (ix3 (0 : Fin 1) h d)) ?_
  show (matmul dot_S128x2048_S2048x1408_S128x1408_1_0_0_1_n_n none _ _ (constant (F := Ideal) S128x1408 .f32 0x00000000#32) (ix2 r h)
        * Ideal.logistic (matmul dot_S128x2048_S2048x1408_S128x1408_1_0_0_1_n_n none _ _ (constant (F := Ideal) S128x1408 .f32 0x00000000#32) (ix2 r h)))
      * matmul dot_S128x2048_S2048x1408_S128x1408_1_0_0_1_n_n none _ _ (constant (F := Ideal) S128x1408 .f32 0x00000000#32) (ix2 r h) = _
  rw [up_apply, up_apply]
  unfold Glu.hidden Glu.proj
  simp only [squeeze_apply]

end Cert.KernelIdeal.Tile

end
-- ==== Proof.RegionValue.lean ====
/-
  What the region leaves in its output array.

  The grid has 8 × 16 points; point `(e, b)` works on rows `128·b … 128·b + 127` of expert `e`: it reads that block of
  the grouped rows and of the routing weights, and ALL of expert `e`'s three matrices, and writes block `(e, b)` of the
  output.  The specification's value at `(e, r, d)` reads only row `r` of expert `e`, expert `e`'s matrices and the row's
  weight (`Glu.scaled_congr`), so what a point writes back is the block of ONE whole-array function: `Glu.scaled` of the five
  arrays as the region finds them.  The 128 blocks tile the `[8, 2048, 2048]` output (row `r` of expert `e` lies in block
  `(e, r / 128)`), hence the array ends holding that function everywhere.
-/
import proofs.«120782_j15307263443373_2_alg».proof.Proof.Gen.KernelIdeal.Frame
import proofs.«120782_j15307263443373_2_alg».proof.Proof.TileValue
import proofs.«120782_j15307263443373_2_alg».proof.Proof.GluSpec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-! ## The five arrays as the region finds them -/

/-- The grouped rows: row `r` of expert `e`. -/
abbrev rows (c : Dev nD) : S8x2048x2048.Idx → EReal := V m c main_v28
/-- The gate matrices. -/
abbrev gate (c : Dev nD) : S8x2048x1408.Idx → EReal := V m c main_v29
/-- The up matrices. -/
abbrev up (c : Dev nD) : S8x2048x1408.Idx → EReal := V m c main_v30
/-- The down matrices. -/
abbrev dn (c : Dev nD) : S8x1408x2048.Idx → EReal := V m c main_v31
/-- The routing weights, one per grouped row. -/
abbrev wts (c : Dev nD) : S8x2048x1.Idx → EReal := V m c main_v34

/-- The output array's contents after the region: the specification of the five arrays, entry by entry. -/
def whole (c : Dev nD) : S8x2048x2048.Idx → EReal := fun i =>
  Glu.scaled (rows m c) (gate m c) (up m c) (dn m c) (wts m c) ⟨(i 0).val, (i 0).isLt⟩ ⟨(i 1).val, (i 1).isLt⟩ ⟨(i 2).val, (i 2).isLt⟩

theorem whole_apply (c : Dev nD) (e : Fin 8) (r : Fin 2048) (d : Fin 2048) :
    whole m c (ix3 e r d) = Glu.scaled (rows m c) (gate m c) (up m c) (dn m c) (wts m c) e r d := rfl

/-! ## Where each window's block sits, decided once over the 128 grid points -/

/-- The index maps: the rows' and the weights' windows move with the output's window on the expert and row-block axes; the
    three matrix windows follow the expert axis only and take the whole matrix. -/
theorem where_blocks : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) < 8 ∧ win0_5.index t (1 : Fin 3) < 16 ∧ win0_5.index t (2 : Fin 3) = 0 :=
  (by decide +kernel : ∀ t : Fin grid0.N, _)

/-- Every (expert, row block) pair is some point's output block. -/
theorem every_block : ∀ (q0 : Fin 8) (q1 : Fin 16), ∃ t : Fin cfg0.N, win0_5.index t = ![q0.val, q1.val, 0] :=
  (by decide +kernel : ∀ (q0 : Fin 8) (q1 : Fin 16), ∃ t : Fin grid0.N, win0_5.index t = ![q0.val, q1.val, 0])

/-! ## Each input block read through its place in its array -/

/-- The rows' block at point `t`, entry `(z, r, k)`: row `128·b + r` of expert `e`, feature `k`. -/
theorem rows_blk (c : Dev nD) (t : Fin cfg0.N) (z : Fin 1) (r : Fin 128) (k : Fin 2048) (e : Fin 8) (row : Fin 2048)
    (he : e.val = win0_5.index t (0 : Fin 3)) (hrow : row.val = win0_5.index t (1 : Fin 3) * 128 + r.val) :
    (iblk m c 0 t : FVec Ideal S1x128x2048 .bf16) (ix3 z r k) = rows m c (ix3 e row k) := by
  obtain ⟨a0, a1, a2, -⟩ := where_blocks t
  have hzv : z.val = 0 := by have := z.isLt; omega
  unfold iblk
  rw [View.read_apply]
  show rows m c _ = rows m c _
  refine congrArg (rows m c) (funext fun a => Fin.ext ?_)
  match a with
  | ⟨0, _⟩ => show win0_0.index t (0 : Fin 3) * 1 + 1 * z.val = e.val; omega
  | ⟨1, _⟩ => show win0_0.index t (1 : Fin 3) * 128 + 1 * r.val = row.val; omega
  | ⟨2, _⟩ => show win0_0.index t (2 : Fin 3) * 2048 + 1 * k.val = k.val; omega

/-- The gate matrix block at point `t` is expert `e`'s whole matrix. -/
theorem gate_blk (c : Dev nD) (t : Fin cfg0.N) (z : Fin 1) (k : Fin 2048) (h : Fin 1408) (e : Fin 8)
    (he : e.val = win0_5.index t (0 : Fin 3)) :
    (iblk m c 1 t : FVec Ideal S1x2048x1408 .bf16) (ix3 z k h) = gate m c (ix3 e k h) := by
  obtain ⟨-, -, -, a0, a1, a2, -⟩ := where_blocks t
  have hzv : z.val = 0 := by have := z.isLt; omega
  unfold iblk
  rw [View.read_apply]
  show gate m c _ = gate m c _
  refine congrArg (gate m c) (funext fun a => Fin.ext ?_)
  match a with
  | ⟨0, _⟩ => show win0_1.index t (0 : Fin 3) * 1 + 1 * z.val = e.val; omega
  | ⟨1, _⟩ => show win0_1.index t (1 : Fin 3) * 2048 + 1 * k.val = k.val; omega
  | ⟨2, _⟩ => show win0_1.index t (2 : Fin 3) * 1408 + 1 * h.val = h.val; omega

/-- The up matrix block at point `t` is expert `e`'s whole matrix. -/
theorem up_blk (c : Dev nD) (t : Fin cfg0.N) (z : Fin 1) (k : Fin 2048) (h : Fin 1408) (e : Fin 8)
    (he : e.val = win0_5.index t (0 : Fin 3)) :
    (iblk m c 2 t : FVec Ideal S1x2048x1408 .bf16) (ix3 z k h) = up m c (ix3 e k h) := by
  obtain ⟨-, -, -, -, -, -, a0, a1, a2, -⟩ := where_blocks t
  have hzv : z.val = 0 := by have := z.isLt; omega
  unfold iblk
  rw [View.read_apply]
  show up m c _ = up m c _
  refine congrArg (up m c) (funext fun a => Fin.ext ?_)
  match a with
  | ⟨0, _⟩ => show win0_2.index t (0 : Fin 3) * 1 + 1 * z.val = e.val; omega
  | ⟨1, _⟩ => show win0_2.index t (1 : Fin 3) * 2048 + 1 * k.val = k.val; omega
  | ⟨2, _⟩ => show win0_2.index t (2 : Fin 3) * 1408 + 1 * h.val = h.val; omega

/-- The down matrix block at point `t` is expert `e`'s whole matrix. -/
theorem dn_blk (c : Dev nD) (t : Fin cfg0.N) (z : Fin 1) (h : Fin 1408) (d : Fin 2048) (e : Fin 8)
    (he : e.val = win0_5.index t (0 : Fin 3)) :
    (iblk m c 3 t : FVec Ideal S1x1408x2048 .bf16) (ix3 z h d) = dn m c (ix3 e h d) := by
  obtain ⟨-, -, -, -, -, -, -, -, -, a0, a1, a2, -⟩ := where_blocks t
  have hzv : z.val = 0 := by have := z.isLt; omega
  unfold iblk
  rw [View.read_apply]
  show dn m c _ = dn m c _
  refine congrArg (dn m c) (funext fun a => Fin.ext ?_)
  match a with
  | ⟨0, _⟩ => show win0_3.index t (0 : Fin 3) * 1 + 1 * z.val = e.val; omega
  | ⟨1, _⟩ => show win0_3.index t (1 : Fin 3) * 1408 + 1 * h.val = h.val; omega
  | ⟨2, _⟩ => show win0_3.index t (2 : Fin 3) * 2048 + 1 * d.val = d.val; omega

/-- The weights' block at point `t`, entry `(z, r, 0)`: the weight of row `128·b + r` of expert `e`. -/
theorem wts_blk (c : Dev nD) (t : Fin cfg0.N) (z : Fin 1) (r : Fin 128) (o : Fin 1) (e : Fin 8) (row : Fin 2048)
    (he : e.val = win0_5.index t (0 : Fin 3)) (hrow : row.val = win0_5.index t (1 : Fin 3) * 128 + r.val) :
    (iblk m c 4 t : FVec Ideal S1x128x1 .f32) (ix3 z r o) = wts m c (ix3 e row o) := by
  obtain ⟨-, -, -, -, -, -, -, -, -, -, -, -, a0, a1, a2, -⟩ := where_blocks t
  have hzv : z.val = 0 := by have := z.isLt; omega
  have hov : o.val = 0 := by have := o.isLt; omega
  unfold iblk
  rw [View.read_apply]
  show wts m c _ = wts m c _
  refine congrArg (wts m c) (funext fun a => Fin.ext ?_)
  match a with
  | ⟨0, _⟩ => show win0_4.index t (0 : Fin 3) * 1 + 1 * z.val = e.val; omega
  | ⟨1, _⟩ => show win0_4.index t (1 : Fin 3) * 128 + 1 * r.val = row.val; omega
  | ⟨2, _⟩ => show win0_4.index t (2 : Fin 3) * 1 + 1 * o.val = o.val; omega

/-! ## What a point writes back, and the array after the run -/

/-- WHAT POINT `t` WRITES BACK is block `t` of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero hz]
  simp only [View.ld_unit_zero (S := S1x128x2048) hz, View.ld_unit_zero (S := S1x2048x1408) hz,
    View.ld_unit_zero (S := S1x1408x2048) hz, View.ld_unit_zero (S := S1x128x1) hz]
  obtain ⟨-, -, -, -, -, -, -, -, -, -, -, -, -, -, -, b0, b1, b2⟩ := where_blocks t
  funext j
  obtain ⟨z, r, d, rfl⟩ : ∃ (z : Fin 1) (r : Fin 128) (d : Fin 2048), j = ix3 z r d := ⟨j 0, j 1, j 2, eq_ix3 j⟩
  have hzv : z.val = 0 := by have := z.isLt; omega
  have hr : r.val < 128 := r.isLt
  rw [View.read_apply]
  have hemb : ((cfg0.win 5).blk t).view.emb (ix3 z r d)
      = (ix3 (⟨win0_5.index t (0 : Fin 3), b0⟩ : Fin 8) (⟨win0_5.index t (1 : Fin 3) * 128 + r.val, by omega⟩ : Fin 2048) d : S8x2048x2048.Idx) :=
    funext fun a => Fin.ext (by
      match a with
      | ⟨0, _⟩ => show win0_5.index t (0 : Fin 3) * 1 + 1 * z.val = win0_5.index t (0 : Fin 3); omega
      | ⟨1, _⟩ => show win0_5.index t (1 : Fin 3) * 128 + 1 * r.val = win0_5.index t (1 : Fin 3) * 128 + r.val; omega
      | ⟨2, _⟩ => show win0_5.index t (2 : Fin 3) * 2048 + 1 * d.val = d.val; omega)
  rw [hemb, whole_apply]
  refine (Tile.stored_apply (iblk m c 0 t) (iblk m c 1 t) (iblk m c 2 t) (iblk m c 3 t) (iblk m c 4 t) z r d).trans ?_
  exact Glu.scaled_congr (iblk m c 0 t) (iblk m c 1 t) (iblk m c 2 t) (iblk m c 3 t) (iblk m c 4 t)
    (rows m c) (gate m c) (up m c) (dn m c) (wts m c) (0 : Fin 1) r _ _
    (fun k => rows_blk m c t 0 r k _ _ rfl rfl)
    (fun k h => gate_blk m c t 0 k h _ rfl)
    (fun k h => up_blk m c t 0 k h _ rfl)
    (fun h d => dn_blk m c t 0 h d _ rfl)
    (wts_blk m c t 0 r 0 _ _ rfl rfl) d

/-- An index of the output array is in point `t`'s block iff each coordinate is in the block's range on its axis. -/
theorem mem_blk (t : Fin cfg0.N) (i : S8x2048x2048.Idx) :
    i ∈ ((cfg0.win 5).blk t).view.set ↔ ∀ a : Fin 3, win0_5.index t a * S1x128x2048.size a ≤ (i a).val ∧ (i a).val < win0_5.index t a * S1x128x2048.size a + S1x128x2048.size a := by
  show i ∈ ((View.whole main_v35).slice (win0_5.rect t)).set ↔ _
  rw [View.set_slice_whole, Rect.mem_set_unit]
  exact Iff.rfl

/-- The blocks tile the array: row `r` of expert `e` lies in the block of point `(e, r / 128)`. -/
theorem covered (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  obtain ⟨t, ht⟩ := every_block ⟨(i 0).val, h0⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 2048 ≤ (i 2).val ∧ (i 2).val < win0_5.index t (2 : Fin 3) * 2048 + 2048; omega

/-- THE OUTPUT ARRAY after the run is `whole`. -/
theorem final (c : Dev nD) : (dats m 0 c).arrAt 5 cfg0.N = whole m c :=
  (dats m 0 c).arrAt_eq_of_cover 5 (whole m c) (fun t _ => flushed_eq m c t) covered

end Cert.KernelIdeal.Region

end
-- ==== Proof.RefValue.lean ====
/-
  The reference, read entry by entry against the specification.

  The reference groups the rows as `[8, 2048, 2048]` (`val_main_v27`), forms the gate and up projections by two batched
  products with the expert axis as the batch axis, applies `t ↦ t · (1 / (1 + e^(-t)))` to the gate, multiplies by the up
  projection, contracts with the down matrices, flattens the result to `[16384, 2048]` and multiplies row `s` by its routing
  weight times one.  The generated read-at-an-index lemmas turn each batched product into the sum over the contracted
  axis; `1 / (1 + e^(-t))` with the literal one IS the logistic function; flat row `s = 2048·e + r` is row `r` of expert
  `e`.  So entry `(s, d)` of the weighted rows is `Glu.scaled` at `(e, r, d)`, for any `[8, 2048, 1]` column that holds the
  row's weight times one at `(e, r, 0)`.
-/
import proofs.«120782_j15307263443373_2_alg».proof.Proof.Gen.ReferenceIdeal.Run
import proofs.«120782_j15307263443373_2_alg».proof.Proof.Gen.ReferenceIdeal.Read
import proofs.«120782_j15307263443373_2_alg».proof.Proof.GluSpec

noncomputable section

namespace Cert.ReferenceIdeal.Core

open Cert.ReferenceIdeal Cert.ReferenceIdeal.Read Idealize.ShloMosaic Idealize.ShloMosaic.ValueIdx

variable (a0 : (⟨S8192x2048, .f32⟩ : BufTy).Contents (Elt Ideal)) (a1 : (⟨S8192x2, .i32⟩ : BufTy).Contents (Elt Ideal))
  (a2 : (⟨S8192x2, .f32⟩ : BufTy).Contents (Elt Ideal)) (a3 a4 : (⟨S8x2048x1408, .f32⟩ : BufTy).Contents (Elt Ideal))
  (a5 : (⟨S8x1408x2048, .f32⟩ : BufTy).Contents (Elt Ideal))

/-- The grouped rows as the specification's first argument. -/
abbrev grouped : S8x2048x2048.Idx → EReal := val_main_v27 (F := Ideal) a0 a1

/-- The gate projection: the batched product's entry `(e, r, h)` is the sum over the features. -/
theorem gate_apply (e : Fin 8) (r : Fin 2048) (h : Fin 1408) :
    val_main_v28 (F := Ideal) a0 a1 a3 (ix3 e r h) = Glu.proj (grouped a0 a1) a3 e r h := by
  rw [val_main_v28_apply]
  unfold Glu.proj
  refine Finset.sum_congr rfl fun k _ => ?_
  have el : lidx_main_v28 (ix3 e r h) k = ix3 e r k :=
    funext fun a => Fin.ext (by match a with | ⟨0, _⟩ => rfl | ⟨1, _⟩ => rfl | ⟨2, _⟩ => rfl)
  have er : ridx_main_v28 (ix3 e r h) k = ix3 e k h :=
    funext fun a => Fin.ext (by match a with | ⟨0, _⟩ => rfl | ⟨1, _⟩ => rfl | ⟨2, _⟩ => rfl)
  rw [el, er]

/-- The up projection, likewise. -/
theorem up_apply (e : Fin 8) (r : Fin 2048) (h : Fin 1408) :
    val_main_v30 (F := Ideal) a0 a1 a4 (ix3 e r h) = Glu.proj (grouped a0 a1) a4 e r h := by
  rw [val_main_v30_apply]
  unfold Glu.proj
  refine Finset.sum_congr rfl fun k _ => ?_
  have el : lidx_main_v30 (ix3 e r h) k = ix3 e r k :=
    funext fun a => Fin.ext (by match a with | ⟨0, _⟩ => rfl | ⟨1, _⟩ => rfl | ⟨2, _⟩ => rfl)
  have er : ridx_main_v30 (ix3 e r h) k = ix3 e k h :=
    funext fun a => Fin.ext (by match a with | ⟨0, _⟩ => rfl | ⟨1, _⟩ => rfl | ⟨2, _⟩ => rfl)
  rw [el, er]

/-- The gated hidden entry: `g · (1 / (1 + e^(-g)))`, with the literal one, is `g · σ(g)`. -/
theorem hidden_apply (e : Fin 8) (r : Fin 2048) (h : Fin 1408) :
    val_main_v31 (F := Ideal) a0 a1 a3 a4 (ix3 e r h) = Glu.hidden (grouped a0 a1) a3 a4 e r h := by
  rw [val_main_v31_apply, val_main_v29_apply, val_main_call1_v5_apply, val_main_call1_v4_apply, val_main_call1_cst_0_apply,
    val_main_call1_v3_apply, val_main_call1_v2_apply, val_main_call1_cst_apply, val_main_call1_v1_apply, val_main_call1_v0_apply,
    gate_apply, up_apply]
  unfold Glu.hidden
  show (Glu.proj (grouped a0 a1) a3 e r h
      * Ideal.div (Ideal.ofBits .f32 0x3F800000#32) (Ideal.ofBits .f32 0x3F800000#32 + Ideal.exp (-(Glu.proj (grouped a0 a1) a3 e r h))))
      * Glu.proj (grouped a0 a1) a4 e r h = _
  rw [Glu.one_f32]
  rfl

/-- The expert's output entry: the contraction with the down matrix is the sum over the hidden units. -/
theorem down_apply (e : Fin 8) (r : Fin 2048) (d : Fin 2048) :
    val_main_v32 (F := Ideal) a0 a1 a3 a4 a5 (ix3 e r d) = Glu.down (grouped a0 a1) a3 a4 a5 e r d := by
  rw [val_main_v32_apply]
  unfold Glu.down
  refine Finset.sum_congr rfl fun k _ => ?_
  have el : lidx_main_v32 (ix3 e r d) k = ix3 e r k :=
    funext fun a => Fin.ext (by match a with | ⟨0, _⟩ => rfl | ⟨1, _⟩ => rfl | ⟨2, _⟩ => rfl)
  have er : ridx_main_v32 (ix3 e r d) k = ix3 e k d :=
    funext fun a => Fin.ext (by match a with | ⟨0, _⟩ => rfl | ⟨1, _⟩ => rfl | ⟨2, _⟩ => rfl)
  rw [el, er, hidden_apply]

/-- THE WEIGHTED ROWS: entry `(s, d)` with `s = 2048·e + r` is the specification at `(e, r, d)`, for any column `W` holding
    at `(e, r, 0)` the row's routing weight times the literal one. -/
theorem weighted_apply (W : (⟨3, ![8, 2048, 1]⟩ : Shape).Idx → EReal) (s : Fin 16384) (d : Fin 2048) (e : Fin 8) (r : Fin 2048)
    (hs : s.val = e.val * 2048 + r.val)
    (hW : W (ix3 e r (0 : Fin 1)) = val_main_v12 (F := Ideal) a1 a2 (ix1 s) * Ideal.ofBits .f32 0x3F800000#32) :
    val_main_v38 (F := Ideal) a0 a1 a2 a3 a4 a5 (ix2 s d) = Glu.scaled (grouped a0 a1) a3 a4 a5 W e r d := by
  have hd : d.val < 2048 := d.isLt
  have hr : r.val < 2048 := r.isLt
  have e33 : idx_main_v33 (ix2 s d) = ix3 e r d :=
    funext fun a => Fin.ext (by
      match a with
      | ⟨0, _⟩ => show (s.val * 2048 + d.val) / 4194304 = e.val; omega
      | ⟨1, _⟩ => show (s.val * 2048 + d.val) / 2048 % 2048 = r.val; omega
      | ⟨2, _⟩ => show (s.val * 2048 + d.val) % 2048 = d.val; omega)
  have e34 : idx_main_v34 (idx_main_v37 (ix2 s d)) = ix1 s :=
    funext fun a => Fin.ext (by match a with | ⟨0, _⟩ => rfl)
  rw [val_main_v38_apply, val_main_v33_apply, val_main_v37_apply, val_main_v36_apply, val_main_v34_apply, val_main_v35_apply,
    val_main_cst_apply, e33, e34, down_apply]
  unfold Glu.scaled
  rw [hW]
  rfl

end Cert.ReferenceIdeal.Core

end
-- ==== Proof.Result.lean ====
/-
  The kernel program's result is the reference's.

  After the region the kernel's program flattens the `[8, 2048, 2048]` output to `[16384, 2048]` (flat row `s = 2048·e + r`),
  widens the float format — the identity on the extended reals — and scatter-adds row `s` into its token's row of a zero
  array.  The reference scatter-adds ITS weighted rows by the same token numbers into the same zero array.  The region's
  output is the specification of the arrays the region finds (`Region.final`), those arrays are the reference's stages
  (`HostSide`), and the reference's weighted rows are the specification of the same stages (`Core.weighted_apply`); so the
  two scatter-adds are applied to equal operands, and are never opened.
-/
import proofs.«120782_j15307263443373_2_alg».proof.Proof.HostSide
import proofs.«120782_j15307263443373_2_alg».proof.Proof.RegionValue
import proofs.«120782_j15307263443373_2_alg».proof.Proof.RefValue

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The lines after the region, applied to what the region left: the scatter-add of the flattened output rows by the sorted
    token numbers into zeros. -/
theorem tail_eq (c : Dev nD) :
    (Pipeline.afterTail₀ cfgs (dats m) 0 (V0 m) [hostOps1] c main_v40 : S8192x2048.Idx → EReal)
      = Host.scatterAdd scatter_S8192x2048_S16384x1_S16384x2048_1_0_0_1
          (broadcastInDim S8192x2048 ![] bcast_S_S8192x2048 (constant (F := Ideal) S_ .f32 0x00000000#32))
          (broadcastInDim S16384x1 ![0] bcast_S16384_S16384x1_0 (V m c main_v19 : S16384.Idx → BitVec 32))
          (extf .f32 (shapeCast S16384x2048 (Region.whole m c) shapeCasts_S8x2048x2048_S16384x2048) bitsLt_bf16_f32) := by
  unfold Pipeline.afterTail₀
  show StableHlo.after hostOps1 _ (Proc.devRef .tc main_v40) = _
  after_results
  have h35 := Pipeline.withArrays_arr spec0 launch0.win.arr_inj c (V0 m c) (fun w => (dats m 0 c).arrAt w cfg0.N) 5
  have h19 := Pipeline.withArrays_of_ne spec0 c (V0 m c) (fun w => (dats m 0 c).arrAt w cfg0.N) main_v19 (by decide)
  rw [Region.final m c] at h35
  have h35' : Pipeline.withArrays (cfgs 0).spec c (V0 m c) (fun w => (dats m 0 c).arrAt w (cfgs 0).N) (Proc.devRef .tc main_v35)
      = Region.whole m c := h35
  have h19' : Pipeline.withArrays (cfgs 0).spec c (V0 m c) (fun w => (dats m 0 c).arrAt w (cfgs 0).N) (Proc.devRef .tc main_v19)
      = V m c main_v19 := h19
  rw [h35', h19']
  rfl

/-- THE FLATTENED OUTPUT ROWS ARE THE REFERENCE'S WEIGHTED ROWS.  Flat row `s` is row `s % 2048` of expert `s / 2048`; there the
    region's output is the specification of the region's arrays, the reference's weighted row the specification of its own
    stages, and the arrays are the stages. -/
theorem flat_eq (c : Dev nD) :
    (extf .f32 (shapeCast S16384x2048 (Region.whole m c) shapeCasts_S8x2048x2048_S16384x2048 : FVec Ideal S16384x2048 .bf16)
        bitsLt_bf16_f32 : FVec Ideal S16384x2048 .f32)
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  obtain ⟨s, d, rfl⟩ : ∃ (s : Fin 16384) (d : Fin 2048), j = ix2 s d := ⟨j 0, j 1, eq_ix2 j⟩
  have hs : s.val < 16384 := s.isLt
  have hd : d.val < 2048 := d.isLt
  have he : s.val / 2048 < 8 := by omega
  have hr : s.val % 2048 < 2048 := by omega
  have hsplit : s.val = (⟨s.val / 2048, he⟩ : Fin 8).val * 2048 + (⟨s.val % 2048, hr⟩ : Fin 2048).val := by
    show s.val = s.val / 2048 * 2048 + s.val % 2048
    omega
  rw [Cert.ReferenceIdeal.Core.weighted_apply _ _ _ _ _ _ (Region.wts m c) s d ⟨s.val / 2048, he⟩ ⟨s.val % 2048, hr⟩ hsplit
    (HostSide.wts_apply m c _ _ s hsplit)]
  show shapeCast S16384x2048 (Region.whole m c) shapeCasts_S8x2048x2048_S16384x2048 (ix2 s d) = _
  refine (shapeCast_apply (Region.whole m c) shapeCasts_S8x2048x2048_S16384x2048 (ix2 s d)
    (ix3 (⟨s.val / 2048, he⟩ : Fin 8) (⟨s.val % 2048, hr⟩ : Fin 2048) d) (by
      rw [Shape.rowMajor_val_three, Shape.rowMajor_val_two]
      show (s.val / 2048 * 2048 + s.val % 2048) * 2048 + d.val = s.val * 2048 + d.val
      omega)).trans ?_
  rw [Region.whole_apply]
  have e1 : Region.rows m c = Cert.ReferenceIdeal.Core.grouped (m ((c : Thread nD τ).loc main_arg0)) (m ((c : Thread nD τ).loc main_arg1)) := HostSide.rows_eq m c
  have e2 : Region.gate m c = (m ((c : Thread nD τ).loc main_arg3)) := HostSide.gate_eq m c
  have e3 : Region.up m c = (m ((c : Thread nD τ).loc main_arg4)) := HostSide.up_eq m c
  have e4 : Region.dn m c = (m ((c : Thread nD τ).loc main_arg5)) := HostSide.dn_eq m c
  rw [e1, e2, e3, e4]

/-- THE RESULT: what the kernel's program leaves in its result buffer is the reference's last stage of the same arguments. -/
theorem result_eq (c : Dev nD) :
    (Pipeline.afterTail₀ cfgs (dats m) 0 (V0 m) [hostOps1] c main_v40 : S8192x2048.Idx → EReal)
      = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail_eq, HostSide.tokens_eq, flat_eq]
  rfl

end Cert.KernelIdeal.Result

end
-- ==== Proof.lean ====
/-
  The certificate of a routed feed-forward layer (top-2 routing over 8 experts, balanced so that every expert receives
  2048 of the 16384 slots) computed by a tiled kernel, against its plain reference.

  Both programs sort the slots by expert id, gather the token rows and the routing weights in that order, and regroup the
  rows as `[8, 2048, 2048]`.  For row `x` of expert `e` both compute `y = ((g · σ(g)) · u) · Wd e` with `g = x · Wg e`,
  `u = x · Wu e` and `σ` the logistic function, multiply `y` by the row's routing weight, and scatter-add the rows back to
  their tokens.  The kernel tiles the work into 8 × 16 blocks of 128 rows; the reference uses three batched products.
  On the extended reals the two are the same sums, so nothing of the precondition is needed beyond what the frames ask:

  * `Proof/GluSpec.lean`     the layer's arithmetic, entry by entry, and its locality;
  * `Proof/TileValue.lean`   one tile of the kernel's body is the specification at the tile's sizes;
  * `Proof/RegionValue.lean` the 128 tiles are blocks of ONE whole-array function, and they cover the output;
  * `Proof/RefValue.lean`    the reference's weighted rows are the same specification;
  * `Proof/HostSide.lean`    the routing arithmetic before the region is the reference's, term for term;
  * `Proof/Result.lean`      the flattened output rows are the reference's weighted rows, hence equal scatter-adds.

  The three frames are the generated ones (the reference's is its run with the result dropped); the idealization rewrote no
  operation, so `preserves` has nothing to state.
-/
import proofs.«120782_j15307263443373_2_alg».proof.Defs
import proofs.«120782_j15307263443373_2_alg».proof.Proof.Gen.Kernel
import proofs.«120782_j15307263443373_2_alg».proof.Proof.Gen.Kernel.Frame
import proofs.«120782_j15307263443373_2_alg».proof.Proof.Gen.KernelIdeal
import proofs.«120782_j15307263443373_2_alg».proof.Proof.Gen.KernelIdeal.Frame
import proofs.«120782_j15307263443373_2_alg».proof.Proof.Gen.ReferenceIdeal
import proofs.«120782_j15307263443373_2_alg».proof.Proof.Gen.ReferenceIdeal.Run
import proofs.«120782_j15307263443373_2_alg».proof.Proof.Gen.ReferenceIdeal.Read
import proofs.«120782_j15307263443373_2_alg».proof.Proof.Gen.Pre_finite_inputs
import proofs.«120782_j15307263443373_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at the reference's last stage of the (agreeing) arguments: the kernel's by
    `Result.result_eq` read off the generated frame run, the reference's by its generated run. -/
theorem algebraic : Cert.algebraic_KernelIdeal_ReferenceIdeal := by
  intro m ρ m' ρ' _ hagree
  refine ⟨fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨((h c).2 Cert.KernelIdeal.main_v40 (Pipeline.mem_restRefs_of Cert.KernelIdeal.main_v40 (by decide) (by decide))).trans
          (Cert.KernelIdeal.Result.result_eq m c),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c),
        ((h c).2 Cert.KernelIdeal.main_arg4 (Pipeline.mem_restRefs_of Cert.KernelIdeal.main_arg4 (by decide) (by decide))).trans
          (Cert.KernelIdeal.Gen.W_main_arg4 m (Cert.KernelIdeal.Gen.dats m) c),
        ((h c).2 Cert.KernelIdeal.main_arg5 (Pipeline.mem_restRefs_of Cert.KernelIdeal.main_arg5 (by decide) (by decide))).trans
          (Cert.KernelIdeal.Gen.W_main_arg5 m (Cert.KernelIdeal.Gen.dats m) c)⟩)
      (Cert.KernelIdeal.Gen.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v41_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
